-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S2x200000 : Shape := ⟨2, ![2, 200000]⟩
abbrev S256x64 : Shape := ⟨2, ![256, 64]⟩
abbrev S64 : Shape := ⟨1, ![64]⟩
abbrev S64x64 : Shape := ⟨2, ![64, 64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : IVec S2x200000 32) (main_arg3 : FVec F S256x64 .f32) (main_arg4 : FVec F S64 .f32) (main_arg5 : FVec F S64x64 .f32) (main_arg6 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x64 .f32 := Host.absf main_arg3
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_v13 main_v16
-- ==== Kernel.lean ====
abbrev S50000x256 : Shape := ⟨2, ![50000, 256]⟩
abbrev S2x800000 : Shape := ⟨2, ![2, 800000]⟩
abbrev S2x200000 : Shape := ⟨2, ![2, 200000]⟩
abbrev S256x64 : Shape := ⟨2, ![256, 64]⟩
abbrev S64 : Shape := ⟨1, ![64]⟩
abbrev S64x64 : Shape := ⟨2, ![64, 64]⟩
abbrev S50000x64 : Shape := ⟨2, ![50000, 64]⟩
abbrev S5000x256 : Shape := ⟨2, ![5000, 256]⟩
abbrev S5000x64 : Shape := ⟨2, ![5000, 64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩
abbrev S2000x64 : Shape := ⟨2, ![2000, 64]⟩
abbrev S2000x1 : Shape := ⟨2, ![2000, 1]⟩
abbrev S2000 : Shape := ⟨1, ![2000]⟩

abbrev nBuf : Space → Nat
  | .hbm => 154
  | .vmem => 16
  | .smem => 0
  | _ => 0

abbrev hbmTy0_0 (i : Nat) : BufTy := match i % 128 with
  | 0 => ⟨S50000x256, .f32⟩
  | 1 => ⟨S2x800000, .i32⟩
  | 2 => ⟨S2x200000, .i32⟩
  | 3 => ⟨S256x64, .f32⟩
  | 4 => ⟨S64, .f32⟩
  | 5 => ⟨S64x64, .f32⟩
  | 6 => ⟨S64, .f32⟩
  | 7 => ⟨S50000x64, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x64, .f32⟩
  | 57 => ⟨S850000x1, .f32⟩
  | 58 => ⟨S850000x64, .f32⟩
  | 59 => ⟨S850000x64, .f32⟩
  | 60 => ⟨S_, .f32⟩
  | 61 => ⟨S50000x64, .f32⟩
  | 62 => ⟨S850000x1, .i32⟩
  | 63 => ⟨S50000x64, .f32⟩
  | 64 => ⟨S1x64, .f32⟩
  | 65 => ⟨S50000x64, .f32⟩
  | 66 => ⟨S50000x64, .f32⟩
  | 67 => ⟨S_, .f32⟩
  | 68 => ⟨S50000x64, .f32⟩
  | 69 => ⟨S50000x64, .f32⟩
  | 70 => ⟨S50000x64, .f32⟩
  | 71 => ⟨S50000, .i32⟩
  | 72 => ⟨S1x800000, .i32⟩
  | 73 => ⟨S800000, .i32⟩
  | 74 => ⟨S850000, .i32⟩
  | 75 => ⟨S1x800000, .i32⟩
  | 76 => ⟨S800000, .i32⟩
  | 77 => ⟨S850000, .i32⟩
  | 78 => ⟨S_, .f32⟩
  | 79 => ⟨S850000, .f32⟩
  | 80 => ⟨S_, .f32⟩
  | 81 => ⟨S50000, .f32⟩
  | 82 => ⟨S850000x1, .i32⟩
  | 83 => ⟨S50000, .f32⟩
  | 84 => ⟨S_, .f32⟩
  | 85 => ⟨S50000, .f32⟩
  | 86 => ⟨S50000, .i1⟩
  | 87 => ⟨S50000, .f32⟩
  | 88 => ⟨S_, .f32⟩
  | 89 => ⟨S_, .f32⟩
  | 90 => ⟨S50000, .f32⟩
  | 91 => ⟨S50000, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000, .f32⟩
  | 110 => ⟨S850000, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000x64, .f32⟩
  | 120 => ⟨S850000x1, .f32⟩
  | 121 => ⟨S850000x64, .f32⟩
  | 122 => ⟨S850000x64, .f32⟩
  | 123 => ⟨S_, .f32⟩
  | 124 => ⟨S50000x64, .f32⟩
  | 125 => ⟨S850000x1, .i32⟩
  | 126 => ⟨S50000x64, .f32⟩
  | 127 => ⟨S1x64, .f32⟩
  | _ => ⟨S50000x256, .f32⟩

abbrev hbmTy0_1 (i : Nat) : BufTy := match i % 128 with
  | 0 => ⟨S50000x64, .f32⟩
  | 1 => ⟨S50000x64, .f32⟩
  | 2 => ⟨S1x200000, .i32⟩
  | 3 => ⟨S200000, .i32⟩
  | 4 => ⟨S1x200000, .i32⟩
  | 5 => ⟨S200000, .i32⟩
  | 6 => ⟨S_, .i32⟩
  | 7 => ⟨S200000, .i32⟩
  | 8 => ⟨S200000, .i1⟩
  | 9 => ⟨S_, .i32⟩
  | 10 => ⟨S200000, .i32⟩
  | 11 => ⟨S200000, .i32⟩
  | 12 => ⟨S200000, .i32⟩
  | 13 => ⟨S200000x1, .i32⟩
  | 14 => ⟨S200000x64, .f32⟩
  | 15 => ⟨S_, .i32⟩
  | 16 => ⟨S200000, .i32⟩
  | 17 => ⟨S200000, .i1⟩
  | 18 => ⟨S_, .i32⟩
  | 19 => ⟨S200000, .i32⟩
  | 20 => ⟨S200000, .i32⟩
  | 21 => ⟨S200000, .i32⟩
  | 22 => ⟨S200000x1, .i32⟩
  | 23 => ⟨S200000x64, .f32⟩
  | 24 => ⟨S200000x1, .f32⟩
  | 25 => ⟨S200000, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x64, .f32⟩
  | .local _ .vmem, ⟨8, _⟩ => ⟨S5000x64, .f32⟩
  | .local _ .vmem, ⟨9, _⟩ => ⟨S5000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x1, .f32⟩
  | .local _ .vmem, ⟨15, _⟩ => ⟨S2000x1, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_9 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_15 : Ref sig .tc := ⟨.hbm, 101, rfl⟩
abbrev main_v71 : Ref sig .tc := ⟨.hbm, 102, rfl⟩
abbrev main_v72 : Ref sig .tc := ⟨.hbm, 103, rfl⟩
abbrev main_c_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_17 : Ref sig .tc := ⟨.hbm, 111, rfl⟩
abbrev main_v79 : Ref sig .tc := ⟨.hbm, 112, rfl⟩
abbrev main_v80 : Ref sig .tc := ⟨.hbm, 113, rfl⟩
abbrev main_c_18 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_c_20 : Ref sig .tc := ⟨.hbm, 134, rfl⟩
abbrev main_v99 : Ref sig .tc := ⟨.hbm, 135, rfl⟩
abbrev main_v100 : Ref sig .tc := ⟨.hbm, 136, rfl⟩
abbrev main_c_21 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_c_22 : Ref sig .tc := ⟨.hbm, 143, rfl⟩
abbrev main_v106 : Ref sig .tc := ⟨.hbm, 144, rfl⟩
abbrev main_v107 : Ref sig .tc := ⟨.hbm, 145, rfl⟩
abbrev main_c_23 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  reduces_S2000x64_S2000 : S2000x64.Reduces [1] S2000
  shapeCasts_S2000_S2000x1 : S2000.ShapeCasts S2000x1
  inb_S2000x1_S2000x1_0_0 : ∀ a, (![0, 0] : Fin 2 → Nat) a + S2000x1.size a ≤ S2000x1.size a
  h_S2000x1 : 0 < S2000x1.numel
  shapeCasts_S200000x1_S200000 : S200000x1.ShapeCasts S200000
  dot_S5000x256_S256x64_S5000x64_1_0_0_1_n_n_wf : DotDims.WF S5000x256 S256x64 S5000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x64_S5000x64_1_0_0_1_n_n_wf : DotDims.WF S5000x64 S64x64 S5000x64 [1] [0] [0] [1] [] []
  gather_S50000x64_S200000x1_S200000x64_1_0_n_n_0_1_164_wf : GatherDims.WF S50000x64 S200000x1 S200000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S200000x64.size a
  hwx2_0 : ∀ i : grid2.Coords, EltTy.bits .f32 = 32 ∨ (Rect.block (s := S200000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S200000x64.size a
  hwx2_1 : ∀ i : grid2.Coords, EltTy.bits .f32 = 32 ∨ (Rect.block (s := S200000x64) S2000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S200000x1.size a
  hwx2_2 : ∀ i : grid2.Coords, EltTy.bits .f32 = 32 ∨ (Rect.block (s := S200000x1) S2000x1.size (cc2_transform_2 i) (hinb2_2 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S200000x1_S200000x64_1_0_n_n_0_1_164 : GatherDims S50000x64 S200000x1 S200000x64 where
  offsetDims := [1]
  collapsedSliceDims := [0]
  operandBatchingDims := []
  startIndicesBatchingDims := []
  startIndexMap := [0]
  indexVectorDim := 1
  sliceSizes := ![1, 64]
  wf := gather_S50000x64_S200000x1_S200000x64_1_0_n_n_0_1_164_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v105) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v112) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v113) S2000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S2x200000 : Shape := ⟨2, ![2, 200000]⟩
abbrev S256x64 : Shape := ⟨2, ![256, 64]⟩
abbrev S64 : Shape := ⟨1, ![64]⟩
abbrev S64x64 : Shape := ⟨2, ![64, 64]⟩
abbrev S50000x64 : Shape := ⟨2, ![50000, 64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩

abbrev nBuf : Space → Nat
  | .hbm => 155
  | .vmem => 0
  | .smem => 0
  | _ => 0

abbrev hbmTy0_0 (i : Nat) : BufTy := match i % 128 with
  | 0 => ⟨S50000x256, .f32⟩
  | 1 => ⟨S2x800000, .i32⟩
  | 2 => ⟨S2x200000, .i32⟩
  | 3 => ⟨S256x64, .f32⟩
  | 4 => ⟨S64, .f32⟩
  | 5 => ⟨S64x64, .f32⟩
  | 6 => ⟨S64, .f32⟩
  | 7 => ⟨S50000x64, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x64, .f32⟩
  | 57 => ⟨S850000x1, .f32⟩
  | 58 => ⟨S850000x64, .f32⟩
  | 59 => ⟨S850000x64, .f32⟩
  | 60 => ⟨S_, .f32⟩
  | 61 => ⟨S50000x64, .f32⟩
  | 62 => ⟨S850000x1, .i32⟩
  | 63 => ⟨S50000x64, .f32⟩
  | 64 => ⟨S1x64, .f32⟩
  | 65 => ⟨S50000x64, .f32⟩
  | 66 => ⟨S50000x64, .f32⟩
  | 67 => ⟨S_, .f32⟩
  | 68 => ⟨S50000x64, .f32⟩
  | 69 => ⟨S50000x64, .f32⟩
  | 70 => ⟨S50000x64, .f32⟩
  | 71 => ⟨S50000, .i32⟩
  | 72 => ⟨S1x800000, .i32⟩
  | 73 => ⟨S800000, .i32⟩
  | 74 => ⟨S850000, .i32⟩
  | 75 => ⟨S1x800000, .i32⟩
  | 76 => ⟨S800000, .i32⟩
  | 77 => ⟨S850000, .i32⟩
  | 78 => ⟨S_, .f32⟩
  | 79 => ⟨S850000, .f32⟩
  | 80 => ⟨S_, .f32⟩
  | 81 => ⟨S50000, .f32⟩
  | 82 => ⟨S850000x1, .i32⟩
  | 83 => ⟨S50000, .f32⟩
  | 84 => ⟨S_, .f32⟩
  | 85 => ⟨S50000, .f32⟩
  | 86 => ⟨S50000, .i1⟩
  | 87 => ⟨S50000, .f32⟩
  | 88 => ⟨S_, .f32⟩
  | 89 => ⟨S_, .f32⟩
  | 90 => ⟨S50000, .f32⟩
  | 91 => ⟨S50000, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000, .f32⟩
  | 110 => ⟨S850000, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000x64, .f32⟩
  | 120 => ⟨S850000x1, .f32⟩
  | 121 => ⟨S850000x64, .f32⟩
  | 122 => ⟨S850000x64, .f32⟩
  | 123 => ⟨S_, .f32⟩
  | 124 => ⟨S50000x64, .f32⟩
  | 125 => ⟨S850000x1, .i32⟩
  | 126 => ⟨S50000x64, .f32⟩
  | 127 => ⟨S1x64, .f32⟩
  | _ => ⟨S50000x256, .f32⟩

abbrev hbmTy0_1 (i : Nat) : BufTy := match i % 128 with
  | 0 => ⟨S50000x64, .f32⟩
  | 1 => ⟨S50000x64, .f32⟩
  | 2 => ⟨S1x200000, .i32⟩
  | 3 => ⟨S200000, .i32⟩
  | 4 => ⟨S1x200000, .i32⟩
  | 5 => ⟨S200000, .i32⟩
  | 6 => ⟨S_, .i32⟩
  | 7 => ⟨S200000, .i32⟩
  | 8 => ⟨S200000, .i1⟩
  | 9 => ⟨S_, .i32⟩
  | 10 => ⟨S200000, .i32⟩
  | 11 => ⟨S200000, .i32⟩
  | 12 => ⟨S200000, .i32⟩
  | 13 => ⟨S200000x1, .i32⟩
  | 14 => ⟨S200000x64, .f32⟩
  | 15 => ⟨S_, .i32⟩
  | 16 => ⟨S200000, .i32⟩
  | 17 => ⟨S200000, .i1⟩
  | 18 => ⟨S_, .i32⟩
  | 19 => ⟨S200000, .i32⟩
  | 20 => ⟨S200000, .i32⟩
  | 21 => ⟨S200000, .i32⟩
  | 22 => ⟨S200000x1, .i32⟩
  | 23 => ⟨S200000x64, .f32⟩
  | 24 => ⟨S200000x64, .f32⟩
  | 25 => ⟨S_, .f32⟩
  | 26 => ⟨S200000, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_9 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_15 : Ref sig .tc := ⟨.hbm, 101, rfl⟩
abbrev main_v71 : Ref sig .tc := ⟨.hbm, 102, rfl⟩
abbrev main_v72 : Ref sig .tc := ⟨.hbm, 103, rfl⟩
abbrev main_c_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_17 : Ref sig .tc := ⟨.hbm, 111, rfl⟩
abbrev main_v79 : Ref sig .tc := ⟨.hbm, 112, rfl⟩
abbrev main_v80 : Ref sig .tc := ⟨.hbm, 113, rfl⟩
abbrev main_c_18 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_c_20 : Ref sig .tc := ⟨.hbm, 134, rfl⟩
abbrev main_v99 : Ref sig .tc := ⟨.hbm, 135, rfl⟩
abbrev main_v100 : Ref sig .tc := ⟨.hbm, 136, rfl⟩
abbrev main_c_21 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_c_22 : Ref sig .tc := ⟨.hbm, 143, rfl⟩
abbrev main_v106 : Ref sig .tc := ⟨.hbm, 144, rfl⟩
abbrev main_v107 : Ref sig .tc := ⟨.hbm, 145, rfl⟩
abbrev main_c_23 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_cst_24 : Ref sig .tc := ⟨.hbm, 153, rfl⟩
abbrev main_v114 : Ref sig .tc := ⟨.hbm, 154, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  reducesTo_S200000x64_S200000_d1 : S200000x64.ReducesTo [1] S200000
  h_S_ : 0 < S_.numel
  dot_S50000x256_S256x64_S50000x64_1_0_0_1_n_n_wf : DotDims.WF S50000x256 S256x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  gather_S50000x64_S200000x1_S200000x64_1_0_n_n_0_1_164_wf : GatherDims.WF S50000x64 S200000x1 S200000x64 [1] [0] [] [0] [] 1 ![1, 64]

variable [Facts₀]

def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S200000x1_S200000x64_1_0_n_n_0_1_164 : GatherDims S50000x64 S200000x1 S200000x64 where
  offsetDims := [1]
  collapsedSliceDims := [0]
  operandBatchingDims := []
  startIndicesBatchingDims := []
  startIndexMap := [0]
  indexVectorDim := 1
  sliceSizes := ![1, 64]
  wf := gather_S50000x64_S200000x1_S200000x64_1_0_n_n_0_1_164_wf

class Facts : Prop extends Facts₀ where

variable [Facts]
-- ==== Proof.KernelRun.lean ====
/-
  The kernel program's run with its result named.

  Every weakly fair execution of the program — three launches among stretches of host operations — terminates without
  a fault; its argument arrays end as they began, and its result buffer ends holding what the last stretch of host
  operations leaves there: the contents reached by folding the host stretches and the launches' write-backs, in program
  order, from the launch memory (`W11`). The other modules read that fold back to a function of the arguments.
-/
import proofs.«142946_j55027120996899_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the arguments unchanged. -/
theorem run_named : θ_run defs (onTc (τ := τ) (main (F := F))) ⟨m, fun _ => 0, ρ⟩ (fun r => ∀ c : Dev nD,
      r.2.mem ((c.tc : Thread nD τ).loc main_v114) = W11 m ρ c (Proc.devRef .tc main_v114)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v114 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c)⟩)

end Cert.KernelIdeal.Named

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.LibRowBlock.lean ====
/-
  A block of rows of a plain matrix product, on the extended reals.

  Let `A` be an `M×K` array and `W` a `K×N` array. If row `p` of a `B×K` array `x` is row `P` of `A`, and column `q` of
  a `K×N` array `w` is column `q` of `W`, then entry `(p, q)` of the product `x · w` accumulated on the vector unit from
  the zero array is entry `(P, q)` of the host's product `A · W`: each is `∑ k, A (P, k) * W (k, q)`, the same sum
  term by term, so no finiteness is asked of the entries and the operands' float formats do not matter. This is
  what a product tiled over its rows — each grid point multiplying its own rows by the whole right operand —
  needs to rejoin the one product of a reference.
-/
import proofs.«142946_j55027120996899_2_alg».proof.Proof.LibPlainDot

noncomputable section

open scoped BigOperators

namespace Cert.Lib.RowBlock

open Idealize.ShloMosaic Idealize.ShloMosaic.ValueIdx

variable {M K N B : ℕ} {φ₁ φ₂ ψ₁ ψ₂ : FTy}

/-- Entry `(p, q)` of a row block's product is entry `(P, q)` of the whole product. -/
theorem matmul_eq_dotGeneral (prec prec' : Option ContractPrecision) (sched : HostSchedule)
    (A : FVec Ideal ⟨2, ![M, K]⟩ φ₁) (W : FVec Ideal ⟨2, ![K, N]⟩ φ₂)
    (x : FVec Ideal ⟨2, ![B, K]⟩ ψ₁) (w : FVec Ideal ⟨2, ![K, N]⟩ ψ₂)
    (P : Fin M) (p : Fin B) (q : Fin N)
    (hx : ∀ k : Fin K, (x (ix2 p k) : EReal) = A (ix2 P k)) (hw : ∀ k : Fin K, (w (ix2 k q) : EReal) = W (ix2 k q)) :
    FloatOps.matmul (DotDims.plain B K N) prec x w (constant ⟨2, ![B, N]⟩ .f32 0x00000000#32) (ix2 p q)
      = FloatOps.dotGeneral (DotDims.plain M K N) prec' sched A W (ix2 P q) := by
  rw [Cert.Lib.PlainDot.matmul_zero_apply, Cert.Lib.PlainDot.dotGeneral_apply]
  exact Finset.sum_congr rfl fun k _ => by rw [hx k, hw k]

end Cert.Lib.RowBlock

end
-- ==== Proof.LibKeepdims.lean ====
/-
  A row reduction kept as a column: the three layout steps of `max(x, axis=-1, keepdims=True)` and
  `sum(x, axis=-1, keepdims=True)` on a matrix, each read at coordinates.

  * a `vector.multi_reduction` of an `[a, b]` matrix over its second axis, at row `i`: the fold of `max` from the
    accumulator's value, or the sum, over the row's entries `(i, k)`;
  * an `[a]` vector cast to the column `[a, 1]`, at `(i, u)`: the vector at `i`;
  * an `[a, 1]` column broadcast to `[a, b]`, at `(i, j)`: the column at `(i, 0)`.
-/
import Idealize.ShloMosaic.PureOps.Ideal.Laws
import Idealize.ShloMosaic.Lib.ValueIdx
import Idealize.ShloMosaic.Lib.Pipeline.Value

noncomputable section

namespace Idealize.ShloMosaic.ValueKeepdims

open Idealize.ShloMosaic Idealize.ShloMosaic.ValueIdx

variable {α : Type}

/-- Row `i` with column `k` put back on the reduced second axis is `(i, k)`. -/
theorem lift_axis1_ix2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A float `vector.multi_reduction <maximumf>` of an `[a, b]` matrix over its second axis, read on the extended reals at
    row `i`: the fold of `max`, from the accumulator's value, over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) :=
    funext fun k => congrArg src (lift_axis1_ix2 h i k)
  exact congrArg (fun f => Finset.fold max (Ideal.ofBits φ acc) f (Finset.univ : Finset (Fin b))) hf

/-- A float `vector.multi_reduction <add>` of an `[a, b]` matrix over its second axis, read on the extended reals at row
    `i`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_axis1_ix2 h i k)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueKeepdims

end
-- ==== Proof.Bodies.lean ====
/-
  The three kernel bodies at an entry, on the extended reals.

  Each of the two matrix-product bodies rounds its operand blocks to bf16 (the identity here), multiplies them on the
  matrix unit from the zero accumulator and stores the product: entry (p, q) of what it stores is the sum over k of
  x (p, k) · w (k, q). So if row p of the block x is row P of an array A, and w is W column by column, that entry is
  entry (P, q) of the product A · W taken whole — the same sum, term by term.

  The row-dot body multiplies its two blocks entry by entry, adds each row's 64 products from the zero word and stores
  the sums as a column: entry (p, 0) is the sum over k of x (p, k) · y (p, k).
-/
import proofs.«142946_j55027120996899_2_alg».proof.Proof.Gen.KernelIdeal.Skeleton
import proofs.«142946_j55027120996899_2_alg».proof.Proof.LibRowBlock
import proofs.«142946_j55027120996899_2_alg».proof.Proof.LibKeepdims
import Idealize.ShloMosaic.Lib.Pipeline.Value

noncomputable section

open scoped BigOperators

namespace Cert.KernelIdeal.Bodies

open Idealize.ShloMosaic Idealize.ShloMosaic.ValueIdx Cert.KernelIdeal Cert.KernelIdeal.Gen

/-- The first product's body: entry (p, q) of a block of 5000 rows is entry (P, q) of the whole 50000 × 256 by
    256 × 64 product when the block's row p is the array's row P. -/
theorem product1_entry (x : Vec Ideal S5000x256 .f32) (w : Vec Ideal S256x64 .f32)
    (A : FVec Ideal ⟨2, ![50000, 256]⟩ .f32) (W : FVec Ideal ⟨2, ![256, 64]⟩ .f32)
    (P : Fin 50000) (p : Fin 5000) (q : Fin 64)
    (hx : ∀ k : Fin 256, (x (ix2 p k) : EReal) = A (ix2 P k)) (hw : ∀ k : Fin 256, (w (ix2 k q) : EReal) = W (ix2 k q)) :
    k0_pay1 x w (ix2 p q) = FloatOps.dotGeneral (DotDims.plain 50000 256 64) none .single A W (ix2 P q) :=
  Cert.Lib.RowBlock.matmul_eq_dotGeneral none none .single A W (truncf .bf16 x bitsLt_bf16_f32)
    (truncf .bf16 w bitsLt_bf16_f32) P p q hx hw

/-- The second product's body, the same over 64 contracted entries (its block passes through a cast to its own shape
    first). -/
theorem product2_entry (x : Vec Ideal S5000x64 .f32) (w : Vec Ideal S64x64 .f32)
    (A : FVec Ideal ⟨2, ![50000, 64]⟩ .f32) (W : FVec Ideal ⟨2, ![64, 64]⟩ .f32)
    (P : Fin 50000) (p : Fin 5000) (q : Fin 64)
    (hx : ∀ k : Fin 64, (x (ix2 p k) : EReal) = A (ix2 P k)) (hw : ∀ k : Fin 64, (w (ix2 k q) : EReal) = W (ix2 k q)) :
    k1_pay1 x w (ix2 p q) = FloatOps.dotGeneral (DotDims.plain 50000 64 64) none .single A W (ix2 P q) := by
  unfold k1_pay1
  rw [shapeCast_self]
  exact Cert.Lib.RowBlock.matmul_eq_dotGeneral none none .single A W (truncf .bf16 x bitsLt_bf16_f32)
    (truncf .bf16 w bitsLt_bf16_f32) P p q hx hw

/-- The row-dot body: entry (p, 0) of the stored column is the sum of row p's 64 products. -/
theorem rowdot_entry (x y : Vec Ideal S2000x64 .f32) (p : Fin 2000) (u : Fin 1) :
    k2_pay1 x y (ix2 p u) = ∑ k : Fin 64, (x (ix2 p k) : EReal) * y (ix2 p k) := by
  unfold k2_pay1
  rw [shapeCast_self, shapeCast_self]
  refine (ValueKeepdims.shapeCast_a_a1_apply _ shapeCasts_S2000_S2000x1 p u).trans ?_
  exact ValueKeepdims.multiReduction_add_row (mulf x y) 0x00000000#32 reduces_S2000x64_S2000 (.inl rfl) rfl p

/-- The same with the two blocks' rows read off two 200000 × 64 arrays: if row p of each block is row P of its array,
    entry (p, 0) is the sum of the arrays' products along row P. -/
theorem rowdot_rows (x y : Vec Ideal S2000x64 .f32) (A B : FVec Ideal ⟨2, ![200000, 64]⟩ .f32)
    (P : Fin 200000) (p : Fin 2000) (u : Fin 1)
    (hx : ∀ k : Fin 64, (x (ix2 p k) : EReal) = A (ix2 P k)) (hy : ∀ k : Fin 64, (y (ix2 p k) : EReal) = B (ix2 P k)) :
    k2_pay1 x y (ix2 p u) = ∑ k : Fin 64, (A (ix2 P k) : EReal) * B (ix2 P k) :=
  (rowdot_entry x y p u).trans (Finset.sum_congr rfl fun k _ => by rw [hx k, hy k])

end Cert.KernelIdeal.Bodies

end
-- ==== Proof.RowDots.lean ====
/-
  The decoding launch, whole: what the third launch leaves in its 200000 × 1 result array.

  The launch walks a hundred grid points. Point t reads rows 2000·t … 2000·t + 1999 of two 200000 × 64 arrays (the
  gathered source and destination rows) and writes back the same rows of a 200000 × 1 column: each row's sum, over its
  64 entries, of the two arrays' products. The hundred blocks cover the column, so it ends holding, at row i, the sum
  over k of a (i, k) · b (i, k) — of whatever the two arrays held when the launch began.
-/
import proofs.«142946_j55027120996899_2_alg».proof.Proof.Gen.KernelIdeal.Frame
import proofs.«142946_j55027120996899_2_alg».proof.Proof.Bodies

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.RowDots

open Cert.KernelIdeal Cert.KernelIdeal.Gen

/-- Row by row, the sum of two 200000 × 64 arrays' products, kept as a column. -/
def rowdots (a b : FVec Ideal ⟨2, ![200000, 64]⟩ .f32) : (⟨2, ![200000, 1]⟩ : Shape).Idx → EReal :=
  fun i => ∑ k : Fin 64, (a (ix2 (i 0) k) : EReal) * b (ix2 (i 0) k)

variable (V : (c : Dev nD) → (b : Ref sig .tc) → Buf (Elt Ideal) ((c : Thread nD τ).loc b))

theorem hz : (![0, 0] : Fin 2 → Nat) = fun _ => 0 := funext fun a => by fin_cases a <;> rfl

/-- The column of row sums of the two arrays as the launch finds them. -/
abbrev whole (c : Dev nD) : (⟨2, ![200000, 1]⟩ : Shape).Idx → EReal := rowdots (V c main_v105) (V c main_v112)

/-- Where each window's block sits at grid point t: all three move down their arrays' rows with t. -/
theorem blocks_at : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point t writes back is rows 2000·t … of the column of row sums. -/
theorem flushed_eq (c : Dev nD) (t : Fin cfg2.N) :
    (dat2 V c).flushed 2 t = ((cfg2.win 2).blk t).view.read (Elt Ideal) (whole V c) := by
  show (cfg2.win 2).cut (grid2.coords t) ((dat2 V c).after 2 t) = _
  rw [after2_2]
  unfold out2_2
  rw [View.canon_unit_zero hz]
  simp only [View.ld_unit_zero (S := S2000x64) hz]
  obtain ⟨e00, e01, e10, e11, e20, e21⟩ := blocks_at t
  have hN : cfg2.N = 100 := N_2
  have ht : t.val < 100 := hN ▸ t.isLt
  funext j
  obtain ⟨p, u, rfl⟩ : ∃ (p : Fin 2000) (u : Fin 1), j = ix2 p u := ⟨j 0, j 1, eq_ix2 j⟩
  have hP : t.val * 2000 + p.val < 200000 := by have := p.isLt; omega
  show k2_pay1 (iblk2 V c 0 t) (iblk2 V c 1 t) (ix2 p u) = whole V c (((cfg2.win 2).blk t).view.emb (ix2 p u))
  have hemb : ((cfg2.win 2).blk t).view.emb (ix2 p u) = ix2 (⟨t.val * 2000 + p.val, hP⟩ : Fin 200000) (0 : Fin 1) := by
    funext a; apply Fin.ext
    match a with
    | ⟨0, _⟩ => show win2_2.index t (0 : Fin 2) * 2000 + 1 * p.val = t.val * 2000 + p.val; rw [e20]; omega
    | ⟨1, _⟩ => show win2_2.index t (1 : Fin 2) * 1 + 1 * u.val = 0; rw [e21]; have := u.isLt; omega
  rw [hemb]
  refine (Bodies.rowdot_rows (iblk2 V c 0 t) (iblk2 V c 1 t) (V c main_v105) (V c main_v112)
    ⟨t.val * 2000 + p.val, hP⟩ p u (fun k => ?_) (fun k => ?_)).trans rfl
  · show V c main_v105 (((cfg2.win 0).blk t).view.emb (ix2 p k)) = V c main_v105 (ix2 (⟨t.val * 2000 + p.val, hP⟩ : Fin 200000) k)
    refine congrArg (V c main_v105) ?_
    funext a; apply Fin.ext
    match a with
    | ⟨0, _⟩ => show win2_0.index t (0 : Fin 2) * 2000 + 1 * p.val = t.val * 2000 + p.val; rw [e00]; omega
    | ⟨1, _⟩ => show win2_0.index t (1 : Fin 2) * 64 + 1 * k.val = k.val; rw [e01]; omega
  · show V c main_v112 (((cfg2.win 1).blk t).view.emb (ix2 p k)) = V c main_v112 (ix2 (⟨t.val * 2000 + p.val, hP⟩ : Fin 200000) k)
    refine congrArg (V c main_v112) ?_
    funext a; apply Fin.ext
    match a with
    | ⟨0, _⟩ => show win2_1.index t (0 : Fin 2) * 2000 + 1 * p.val = t.val * 2000 + p.val; rw [e10]; omega
    | ⟨1, _⟩ => show win2_1.index t (1 : Fin 2) * 64 + 1 * k.val = k.val; rw [e11]; omega

/-- An entry of the column is in point t's block iff its row is among the block's 2000 rows. -/
theorem mem_blk (t : Fin cfg2.N) (i : S200000x1.Idx) :
    i ∈ ((cfg2.win 2).blk t).view.set ↔ ∀ a : Fin 2, win2_2.index t a * S2000x1.size a ≤ (i a).val ∧ (i a).val < win2_2.index t a * S2000x1.size a + S2000x1.size a := by
  show i ∈ ((View.whole main_v113).slice (win2_2.rect t)).set ↔ _
  rw [View.set_slice_whole, Rect.mem_set_unit]
  exact Iff.rfl

/-- Every entry of the column is written back by the point its row's block belongs to. -/
theorem cover (i : S200000x1.Idx) : ∃ t : Fin cfg2.N, (cfg2.win 2).flush t = true ∧ i ∈ ((cfg2.win 2).blk t).view.set := by
  have hi0 : (i 0).val < 200000 := (i 0).isLt
  have hi1 : (i 1).val < 1 := (i 1).isLt
  have hN : cfg2.N = 100 := N_2
  have hlt : (i 0).val / 2000 < cfg2.N := by rw [hN]; omega
  obtain ⟨-, -, -, -, e20, e21⟩ := blocks_at ⟨(i 0).val / 2000, hlt⟩
  refine ⟨⟨(i 0).val / 2000, hlt⟩, flush2_2 _, ?_⟩
  rw [mem_blk]
  intro a
  match a with
  | ⟨0, _⟩ =>
    show win2_2.index ⟨(i 0).val / 2000, hlt⟩ (0 : Fin 2) * 2000 ≤ (i 0).val ∧ (i 0).val < win2_2.index ⟨(i 0).val / 2000, hlt⟩ (0 : Fin 2) * 2000 + 2000
    rw [e20]; show (i 0).val / 2000 * 2000 ≤ (i 0).val ∧ (i 0).val < (i 0).val / 2000 * 2000 + 2000; omega
  | ⟨1, _⟩ =>
    show win2_2.index ⟨(i 0).val / 2000, hlt⟩ (1 : Fin 2) * 1 ≤ (i 1).val ∧ (i 1).val < win2_2.index ⟨(i 0).val / 2000, hlt⟩ (1 : Fin 2) * 1 + 1
    rw [e21]; omega

/-- The column after the launch: the row sums of the arrays the launch found. -/
theorem array (c : Dev nD) : (dat2 V c).arrAt 2 cfg2.N = whole V c :=
  (dat2 V c).arrAt_eq_of_cover 2 (whole V c) (fun t _ => flushed_eq V c t) cover

end Cert.KernelIdeal.RowDots

end
-- ==== Proof.Product2.lean ====
/-
  The second product, whole: what the second launch leaves in its 50000 × 64 result array.

  As the first launch, over ten grid points: point t reads rows 5000·t … 5000·t + 4999 of the 50000 × 64 left array
  (the hidden layer) and the whole 64 × 64 right array, and writes back the same rows of the result, the block's
  product. The ten row blocks cover the result, which therefore ends holding the whole product of whatever the two
  arrays held when the launch began.
-/
import proofs.«142946_j55027120996899_2_alg».proof.Proof.Gen.KernelIdeal.Frame
import proofs.«142946_j55027120996899_2_alg».proof.Proof.Bodies

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Product2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The whole product of the two arrays as the launch finds them. -/
abbrev whole (c : Dev nD) : FVec Ideal ⟨2, ![50000, 64]⟩ .f32 :=
  FloatOps.dotGeneral (φ₁ := .f32) (φ₂ := .f32) (DotDims.plain 50000 64 64) none .single (V c main_v47) (V c main_arg5)

/-- Where each window's block sits at grid point t: the left array's and the result's row blocks move with t, the
    right array's one block stays. -/
theorem blocks_at : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is rows 5000·t … of the whole product. -/
theorem flushed_eq (c : Dev nD) (t : Fin cfg1.N) :
    (dat1 V c).flushed 2 t = ((cfg1.win 2).blk t).view.read (Elt Ideal) (whole V c) := by
  show (cfg1.win 2).cut (grid1.coords t) ((dat1 V c).after 2 t) = _
  rw [after1_2]
  unfold out1_2
  rw [View.canon_unit_zero hz]
  simp only [View.ld_unit_zero (S := S5000x64) hz, View.ld_unit_zero (S := S64x64) hz]
  obtain ⟨e00, e01, e10, e11, e20, e21⟩ := blocks_at t
  have hN : cfg1.N = 10 := N_1
  have ht : t.val < 10 := hN ▸ t.isLt
  funext j
  obtain ⟨p, q, rfl⟩ : ∃ (p : Fin 5000) (q : Fin 64), j = ix2 p q := ⟨j 0, j 1, eq_ix2 j⟩
  have hP : t.val * 5000 + p.val < 50000 := by have := p.isLt; omega
  show k1_pay1 (iblk1 V c 0 t) (iblk1 V c 1 t) (ix2 p q) = whole V c (((cfg1.win 2).blk t).view.emb (ix2 p q))
  have hemb : ((cfg1.win 2).blk t).view.emb (ix2 p q) = ix2 (⟨t.val * 5000 + p.val, hP⟩ : Fin 50000) q := by
    funext a; apply Fin.ext
    match a with
    | ⟨0, _⟩ => show win1_2.index t (0 : Fin 2) * 5000 + 1 * p.val = t.val * 5000 + p.val; rw [e20]; omega
    | ⟨1, _⟩ => show win1_2.index t (1 : Fin 2) * 64 + 1 * q.val = q.val; rw [e21]; omega
  rw [hemb]
  refine Bodies.product2_entry (iblk1 V c 0 t) (iblk1 V c 1 t) _ _ ⟨t.val * 5000 + p.val, hP⟩ p q (fun k => ?_) (fun k => ?_)
  · show V c main_v47 (((cfg1.win 0).blk t).view.emb (ix2 p k)) = V c main_v47 (ix2 (⟨t.val * 5000 + p.val, hP⟩ : Fin 50000) k)
    refine congrArg (V c main_v47) ?_
    funext a; apply Fin.ext
    match a with
    | ⟨0, _⟩ => show win1_0.index t (0 : Fin 2) * 5000 + 1 * p.val = t.val * 5000 + p.val; rw [e00]; omega
    | ⟨1, _⟩ => show win1_0.index t (1 : Fin 2) * 64 + 1 * k.val = k.val; rw [e01]; omega
  · show V c main_arg5 (((cfg1.win 1).blk t).view.emb (ix2 k q)) = V c main_arg5 (ix2 k q)
    refine congrArg (V c main_arg5) ?_
    funext a; apply Fin.ext
    match a with
    | ⟨0, _⟩ => show win1_1.index t (0 : Fin 2) * 64 + 1 * k.val = k.val; rw [e10]; omega
    | ⟨1, _⟩ => show win1_1.index t (1 : Fin 2) * 64 + 1 * q.val = q.val; rw [e11]; omega

/-- An entry of the result array is in point t's block iff its row is among the block's 5000 rows. -/
theorem mem_blk (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v48).slice (win1_2.rect t)).set ↔ _
  rw [View.set_slice_whole, Rect.mem_set_unit]
  exact Iff.rfl

/-- Every entry of the result is written back by the point its row's block belongs to. -/
theorem cover (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 10 := N_1
  have hlt : (i 0).val / 5000 < cfg1.N := by rw [hN]; omega
  obtain ⟨-, -, -, -, e20, e21⟩ := blocks_at ⟨(i 0).val / 5000, hlt⟩
  refine ⟨⟨(i 0).val / 5000, hlt⟩, flush1_2 _, ?_⟩
  rw [mem_blk]
  intro a
  match a with
  | ⟨0, _⟩ =>
    show win1_2.index ⟨(i 0).val / 5000, hlt⟩ (0 : Fin 2) * 5000 ≤ (i 0).val ∧ (i 0).val < win1_2.index ⟨(i 0).val / 5000, hlt⟩ (0 : Fin 2) * 5000 + 5000
    rw [e20]; show (i 0).val / 5000 * 5000 ≤ (i 0).val ∧ (i 0).val < (i 0).val / 5000 * 5000 + 5000; omega
  | ⟨1, _⟩ =>
    show win1_2.index ⟨(i 0).val / 5000, hlt⟩ (1 : Fin 2) * 64 ≤ (i 1).val ∧ (i 1).val < win1_2.index ⟨(i 0).val / 5000, hlt⟩ (1 : Fin 2) * 64 + 64
    rw [e21]; omega

/-- The result array after the launch: the whole product of the arrays the launch found. -/
theorem array (c : Dev nD) : (dat1 V c).arrAt 2 cfg1.N = whole V c :=
  (dat1 V c).arrAt_eq_of_cover 2 (whole V c) (fun t _ => flushed_eq V c t) cover

end Cert.KernelIdeal.Product2

end
-- ==== Proof.Product1.lean ====
/-
  The first product, whole: what the 50000 × 64 result array holds when the first launch has run.

  The launch walks ten grid points. Point t reads rows 5000·t … 5000·t + 4999 of the 50000 × 256 left array and the
  whole 256 × 64 right array, and writes back rows 5000·t … 5000·t + 4999 of the result: the block's product. Entry
  (p, q) of that block is entry (5000·t + p, q) of the product of the two arrays taken whole, and the ten row blocks
  cover the result, so the result array ends holding the whole product — of whatever the two arrays held when the
  launch began.
-/
import proofs.«142946_j55027120996899_2_alg».proof.Proof.Gen.KernelIdeal.Frame
import proofs.«142946_j55027120996899_2_alg».proof.Proof.Bodies

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Product1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The whole product of the two arrays as the launch finds them. -/
abbrev whole (c : Dev nD) : FVec Ideal ⟨2, ![50000, 64]⟩ .f32 :=
  FloatOps.dotGeneral (φ₁ := .f32) (φ₂ := .f32) (DotDims.plain 50000 256 64) none .single (V c main_arg0) (V c main_arg3)

/-- Where each window's block sits at grid point t: the left array's and the result's row blocks move with t, the
    right array's one block stays. -/
theorem blocks_at : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is rows 5000·t … of the whole product. -/
theorem flushed_eq (c : Dev nD) (t : Fin cfg0.N) :
    (dat0 V c).flushed 2 t = ((cfg0.win 2).blk t).view.read (Elt Ideal) (whole V c) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x64) hz]
  obtain ⟨e00, e01, e10, e11, e20, e21⟩ := blocks_at t
  have hN : cfg0.N = 10 := N_0
  have ht : t.val < 10 := hN ▸ t.isLt
  funext j
  obtain ⟨p, q, rfl⟩ : ∃ (p : Fin 5000) (q : Fin 64), j = ix2 p q := ⟨j 0, j 1, eq_ix2 j⟩
  have hP : t.val * 5000 + p.val < 50000 := by have := p.isLt; omega
  show k0_pay1 (iblk0 V c 0 t) (iblk0 V c 1 t) (ix2 p q) = whole V c (((cfg0.win 2).blk t).view.emb (ix2 p q))
  have hemb : ((cfg0.win 2).blk t).view.emb (ix2 p q) = ix2 (⟨t.val * 5000 + p.val, hP⟩ : Fin 50000) q := by
    funext a; apply Fin.ext
    match a with
    | ⟨0, _⟩ => show win0_2.index t (0 : Fin 2) * 5000 + 1 * p.val = t.val * 5000 + p.val; rw [e20]; omega
    | ⟨1, _⟩ => show win0_2.index t (1 : Fin 2) * 64 + 1 * q.val = q.val; rw [e21]; omega
  rw [hemb]
  refine Bodies.product1_entry (iblk0 V c 0 t) (iblk0 V c 1 t) _ _ ⟨t.val * 5000 + p.val, hP⟩ p q (fun k => ?_) (fun k => ?_)
  · show V c main_arg0 (((cfg0.win 0).blk t).view.emb (ix2 p k)) = V c main_arg0 (ix2 (⟨t.val * 5000 + p.val, hP⟩ : Fin 50000) k)
    refine congrArg (V c main_arg0) ?_
    funext a; apply Fin.ext
    match a with
    | ⟨0, _⟩ => show win0_0.index t (0 : Fin 2) * 5000 + 1 * p.val = t.val * 5000 + p.val; rw [e00]; omega
    | ⟨1, _⟩ => show win0_0.index t (1 : Fin 2) * 256 + 1 * k.val = k.val; rw [e01]; omega
  · show V c main_arg3 (((cfg0.win 1).blk t).view.emb (ix2 k q)) = V c main_arg3 (ix2 k q)
    refine congrArg (V c main_arg3) ?_
    funext a; apply Fin.ext
    match a with
    | ⟨0, _⟩ => show win0_1.index t (0 : Fin 2) * 256 + 1 * k.val = k.val; rw [e10]; omega
    | ⟨1, _⟩ => show win0_1.index t (1 : Fin 2) * 64 + 1 * q.val = q.val; rw [e11]; omega

/-- An entry of the result array is in point t's block iff its row is among the block's 5000 rows. -/
theorem mem_blk (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- Every entry of the result is written back by the point its row's block belongs to. -/
theorem cover (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 10 := N_0
  have hlt : (i 0).val / 5000 < cfg0.N := by rw [hN]; omega
  obtain ⟨-, -, -, -, e20, e21⟩ := blocks_at ⟨(i 0).val / 5000, hlt⟩
  refine ⟨⟨(i 0).val / 5000, hlt⟩, flush0_2 _, ?_⟩
  rw [mem_blk]
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    rw [e20]; show (i 0).val / 5000 * 5000 ≤ (i 0).val ∧ (i 0).val < (i 0).val / 5000 * 5000 + 5000; omega
  | ⟨1, _⟩ =>
    show win0_2.index ⟨(i 0).val / 5000, hlt⟩ (1 : Fin 2) * 64 ≤ (i 1).val ∧ (i 1).val < win0_2.index ⟨(i 0).val / 5000, hlt⟩ (1 : Fin 2) * 64 + 64
    rw [e21]; omega

/-- The result array after the launch: the whole product of the arrays the launch found. -/
theorem array (c : Dev nD) : (dat0 V c).arrAt 2 cfg0.N = whole V c :=
  (dat0 V c).arrAt_eq_of_cover 2 (whole V c) (fun t _ => flushed_eq V c t) cover

end Cert.KernelIdeal.Product1

end
-- ==== Proof.Args.lean ====
/-
  Names for the seven argument arrays of the kernel program on a core: the node features, the edge list, the label
  edge list, the two weight matrices and the two biases, as the launch memory holds them.
-/
import proofs.«142946_j55027120996899_2_alg».proof.Proof.Gen.KernelIdeal.Frame
import Idealize.ShloMosaic.PureOps.Ideal

set_option maxRecDepth 16384

noncomputable section

open Idealize.ShloMosaic Idealize.ShloMosaic.TcCoe Idealize.SL.Sem Idealize.ShloMosaic.StableHlo

namespace Cert.KernelIdeal.Args

open Cert.KernelIdeal Cert.KernelIdeal.Gen

variable (m : (ℓ : Loc nD τ sig) → Buf (Elt Ideal) ℓ) (c : Dev nD)

/-- The node features, 50000 × 256. -/
abbrev a0 := m ((c.tc : Thread nD τ).loc main_arg0)
/-- The edge list, 2 × 800000. -/
abbrev a1 := m ((c.tc : Thread nD τ).loc main_arg1)
/-- The label edges, 2 × 200000. -/
abbrev a2 := m ((c.tc : Thread nD τ).loc main_arg2)
/-- The first weight matrix, 256 × 64. -/
abbrev a3 := m ((c.tc : Thread nD τ).loc main_arg3)
/-- The first bias, 64. -/
abbrev a4 := m ((c.tc : Thread nD τ).loc main_arg4)
/-- The second weight matrix, 64 × 64. -/
abbrev a5 := m ((c.tc : Thread nD τ).loc main_arg5)
/-- The second bias, 64. -/
abbrev a6 := m ((c.tc : Thread nD τ).loc main_arg6)

end Cert.KernelIdeal.Args

end
-- ==== Proof.Layer1.lean ====
/-
  From the first product to the hidden layer.

  Between the first and the second launch the host aggregates the first product's rows along the graph's edges (a
  self-loop added at every node, each edge weighted by the inverse square roots of its two ends' degrees), adds the first
  bias and keeps the positive part. The reference applies the same host operations, in the same order, to its own
  product. The host stretch falls into four runs of operations (the two outlined functions, the degree mask's select and
  the positive part, are runs of their own); this module follows the buffers the later runs read through them, one
  boundary at a time, each named by the reference's own stage function of the arguments. The first fact is that the first
  launch left the whole product in its result array.
-/
import proofs.«142946_j55027120996899_2_alg».proof.Proof.Gen.KernelIdeal.Frame
import proofs.«142946_j55027120996899_2_alg».proof.Proof.Product1
import proofs.«142946_j55027120996899_2_alg».proof.Proof.RefRead
import proofs.«142946_j55027120996899_2_alg».proof.Proof.Args

set_option maxRecDepth 16384

noncomputable section

open Idealize.ShloMosaic Idealize.ShloMosaic.TcCoe Idealize.SL.Sem Idealize.ShloMosaic.StableHlo

namespace Cert.KernelIdeal.Layer1

open Cert.KernelIdeal Cert.KernelIdeal.Gen Cert.KernelIdeal.Args

variable (m : (ℓ : Loc nD τ sig) → Buf (Elt Ideal) ℓ) (ρ : Dev nD → PrngReg)

/-! ## When the first launch has run -/

/-- The first launch's result array holds the whole product of the features and the first weight matrix. -/
theorem product (c : Dev nD) : W1 m ρ c (Proc.devRef .tc main_v0) = Product1.whole (V0 m ρ) c :=
  (W1_arr m ρ c 2).trans (Product1.array (V0 m ρ) c)

/-- That product is the reference's first stage. -/
theorem at1_v0 (c : Dev nD) : W1 m ρ c (Proc.devRef .tc main_v0) = Cert.ReferenceIdeal.Read.val_main_v0 (F := Ideal) (a0 m c) (a3 m c) :=
  (product m ρ c).trans rfl

/-- The launch leaves argument 1 as it was. -/
theorem at1_arg1 (c : Dev nD) : W1 m ρ c (Proc.devRef .tc main_arg1) = a1 m c := W1_of_ne m ρ c main_arg1 (by decide)
/-- The launch leaves argument 2 as it was. -/
theorem at1_arg2 (c : Dev nD) : W1 m ρ c (Proc.devRef .tc main_arg2) = a2 m c := W1_of_ne m ρ c main_arg2 (by decide)
/-- The launch leaves argument 4 as it was. -/
theorem at1_arg4 (c : Dev nD) : W1 m ρ c (Proc.devRef .tc main_arg4) = a4 m c := W1_of_ne m ρ c main_arg4 (by decide)
/-- The launch leaves argument 5 as it was. -/
theorem at1_arg5 (c : Dev nD) : W1 m ρ c (Proc.devRef .tc main_arg5) = a5 m c := W1_of_ne m ρ c main_arg5 (by decide)
/-- The launch leaves argument 6 as it was. -/
theorem at1_arg6 (c : Dev nD) : W1 m ρ c (Proc.devRef .tc main_arg6) = a6 m c := W1_of_ne m ρ c main_arg6 (by decide)

/-! ## After the first run of host operations: the edge lists with their self-loops, the degrees' mask and inverse roots -/

theorem at2_v4 (c : Dev nD) : W2 m ρ c (Proc.devRef .tc main_v4) = Cert.ReferenceIdeal.Read.val_main_v4 (F := Ideal) (a1 m c) := by
  show StableHlo.after hostOps1 (W1 m ρ c) (Proc.devRef .tc main_v4) = _
  generalize hW : W1 m ρ c = W
  simp only [hostOps1]
  (try after_results_simp)
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  have e0 : W (Proc.devRef .tc main_arg1) = a1 m c := by rw [← hW]; exact at1_arg1 m ρ c
  try rw [e0]
  rfl

theorem at2_v7 (c : Dev nD) : W2 m ρ c (Proc.devRef .tc main_v7) = Cert.ReferenceIdeal.Read.val_main_v7 (F := Ideal) (a1 m c) := by
  show StableHlo.after hostOps1 (W1 m ρ c) (Proc.devRef .tc main_v7) = _
  generalize hW : W1 m ρ c = W
  simp only [hostOps1]
  (try after_results_simp)
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  have e0 : W (Proc.devRef .tc main_arg1) = a1 m c := by rw [← hW]; exact at1_arg1 m ρ c
  try rw [e0]
  rfl

theorem at2_v13 (c : Dev nD) : W2 m ρ c (Proc.devRef .tc main_v13) = Cert.ReferenceIdeal.Read.val_main_v13 (F := Ideal) (a1 m c) := by
  show StableHlo.after hostOps1 (W1 m ρ c) (Proc.devRef .tc main_v13) = _
  generalize hW : W1 m ρ c = W
  simp only [hostOps1]
  (try after_results_simp)
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  have e0 : W (Proc.devRef .tc main_arg1) = a1 m c := by rw [← hW]; exact at1_arg1 m ρ c
  try rw [e0]
  rfl

theorem at2_v14 (c : Dev nD) : W2 m ρ c (Proc.devRef .tc main_v14) = Cert.ReferenceIdeal.Read.val_main_v14 (F := Ideal) (a1 m c) := by
  show StableHlo.after hostOps1 (W1 m ρ c) (Proc.devRef .tc main_v14) = _
  generalize hW : W1 m ρ c = W
  simp only [hostOps1]
  (try after_results_simp)
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  have e0 : W (Proc.devRef .tc main_arg1) = a1 m c := by rw [← hW]; exact at1_arg1 m ρ c
  try rw [e0]
  rfl

theorem at2_cst_2 (c : Dev nD) : W2 m ρ c (Proc.devRef .tc main_cst_2) = Cert.ReferenceIdeal.Read.val_main_cst_2 (F := Ideal) := by
  show StableHlo.after hostOps1 (W1 m ρ c) (Proc.devRef .tc main_cst_2) = _
  generalize hW : W1 m ρ c = W
  simp only [hostOps1]
  (try after_results_simp)
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  have e0 : W (Proc.devRef .tc main_arg1) = a1 m c := by rw [← hW]; exact at1_arg1 m ρ c
  try rw [e0]
  rfl

theorem at2_v0 (c : Dev nD) : W2 m ρ c (Proc.devRef .tc main_v0) = Cert.ReferenceIdeal.Read.val_main_v0 (F := Ideal) (a0 m c) (a3 m c) := by
  show StableHlo.after hostOps1 (W1 m ρ c) (Proc.devRef .tc main_v0) = _
  generalize hW : W1 m ρ c = W
  simp only [hostOps1]
  (try after_results_simp)
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [← hW]; exact at1_v0 m ρ c

theorem at2_arg4 (c : Dev nD) : W2 m ρ c (Proc.devRef .tc main_arg4) = a4 m c := by
  show StableHlo.after hostOps1 (W1 m ρ c) (Proc.devRef .tc main_arg4) = _
  generalize hW : W1 m ρ c = W
  simp only [hostOps1]
  (try after_results_simp)
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [← hW]; exact at1_arg4 m ρ c

/-! ## After the degree mask's select: the edge weights' factor per node -/

/-- The degree mask's select, with the outlined function's buffers read at the value's type: the mask picks the
    inverse root where the degree is positive and the constant elsewhere. -/
theorem mask_select (p : (⟨Cert.ReferenceIdeal.S50000, .i1⟩ : BufTy).Contents (Elt Ideal)) (q : (⟨Cert.ReferenceIdeal.S50000, .f32⟩ : BufTy).Contents (Elt Ideal))
    (k : (⟨Cert.ReferenceIdeal.S_, .f32⟩ : BufTy).Contents (Elt Ideal)) :
    (TRef.of main_v15 : TRef sig ⟨S50000, .f32⟩).toBuf (select ((TRef.of main_v13 : TRef sig ⟨S50000, .i1⟩).ofBuf p) ((TRef.of main_v14 : TRef sig ⟨S50000, .f32⟩).ofBuf q)
      ((TRef.of main_call0_v1 : TRef sig ⟨S50000, .f32⟩).ofBuf ((TRef.of main_call0_v1 : TRef sig ⟨S50000, .f32⟩).toBuf (broadcastInDim S50000 ![] bcast_S_S50000
        ((TRef.of main_call0_v0 : TRef sig ⟨S_, .f32⟩).ofBuf ((TRef.of main_call0_v0 : TRef sig ⟨S_, .f32⟩).toBuf (id ((TRef.of main_cst_2 : TRef sig ⟨S_, .f32⟩).ofBuf k))))))))
      = select p q (broadcastInDim Cert.ReferenceIdeal.S50000 ![] Cert.ReferenceIdeal.Gen.bcast_S_S50000 (id k)) := rfl

theorem at3_v15 (c : Dev nD) : W3 m ρ c (Proc.devRef .tc main_v15) = Cert.ReferenceIdeal.Read.val_main_v15 (F := Ideal) (a1 m c) := by
  show StableHlo.after hostOps1_1 (W2 m ρ c) (Proc.devRef .tc main_v15) = _
  generalize hW : W2 m ρ c = W
  simp only [hostOps1_1]
  (try after_results_simp)
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  have e0 : W (Proc.devRef .tc main_v13) = Cert.ReferenceIdeal.Read.val_main_v13 (F := Ideal) (a1 m c) := by rw [← hW]; exact at2_v13 m ρ c
  try rw [e0]
  have e1 : W (Proc.devRef .tc main_v14) = Cert.ReferenceIdeal.Read.val_main_v14 (F := Ideal) (a1 m c) := by rw [← hW]; exact at2_v14 m ρ c
  try rw [e1]
  have e2 : W (Proc.devRef .tc main_cst_2) = Cert.ReferenceIdeal.Read.val_main_cst_2 (F := Ideal) := by rw [← hW]; exact at2_cst_2 m ρ c
  try rw [e2]
  unfold Cert.ReferenceIdeal.Read.val_main_v15 Cert.ReferenceIdeal.Read.val_main_call0_v1 Cert.ReferenceIdeal.Read.val_main_call0_v0
  generalize Cert.ReferenceIdeal.Read.val_main_v13 (F := Ideal) (a1 m c) = p
  generalize Cert.ReferenceIdeal.Read.val_main_v14 (F := Ideal) (a1 m c) = q
  generalize Cert.ReferenceIdeal.Read.val_main_cst_2 (F := Ideal) = k
  exact mask_select p q k

theorem at3_v4 (c : Dev nD) : W3 m ρ c (Proc.devRef .tc main_v4) = Cert.ReferenceIdeal.Read.val_main_v4 (F := Ideal) (a1 m c) := by
  show StableHlo.after hostOps1_1 (W2 m ρ c) (Proc.devRef .tc main_v4) = _
  generalize hW : W2 m ρ c = W
  simp only [hostOps1_1]
  (try after_results_simp)
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [← hW]; exact at2_v4 m ρ c

theorem at3_v7 (c : Dev nD) : W3 m ρ c (Proc.devRef .tc main_v7) = Cert.ReferenceIdeal.Read.val_main_v7 (F := Ideal) (a1 m c) := by
  show StableHlo.after hostOps1_1 (W2 m ρ c) (Proc.devRef .tc main_v7) = _
  generalize hW : W2 m ρ c = W
  simp only [hostOps1_1]
  (try after_results_simp)
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [← hW]; exact at2_v7 m ρ c

theorem at3_v0 (c : Dev nD) : W3 m ρ c (Proc.devRef .tc main_v0) = Cert.ReferenceIdeal.Read.val_main_v0 (F := Ideal) (a0 m c) (a3 m c) := by
  show StableHlo.after hostOps1_1 (W2 m ρ c) (Proc.devRef .tc main_v0) = _
  generalize hW : W2 m ρ c = W
  simp only [hostOps1_1]
  (try after_results_simp)
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [← hW]; exact at2_v0 m ρ c

theorem at3_arg4 (c : Dev nD) : W3 m ρ c (Proc.devRef .tc main_arg4) = a4 m c := by
  show StableHlo.after hostOps1_1 (W2 m ρ c) (Proc.devRef .tc main_arg4) = _
  generalize hW : W2 m ρ c = W
  simp only [hostOps1_1]
  (try after_results_simp)
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [← hW]; exact at2_arg4 m ρ c

/-! ## After the aggregation and the bias -/

theorem at4_v46 (c : Dev nD) : W4 m ρ c (Proc.devRef .tc main_v46) = Cert.ReferenceIdeal.Read.val_main_v46 (F := Ideal) (a0 m c) (a1 m c) (a3 m c) (a4 m c) := by
  show StableHlo.after hostOps1_2 (W3 m ρ c) (Proc.devRef .tc main_v46) = _
  generalize hW : W3 m ρ c = W
  simp only [hostOps1_2]
  (try after_results_simp)
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  have e0 : W (Proc.devRef .tc main_v15) = Cert.ReferenceIdeal.Read.val_main_v15 (F := Ideal) (a1 m c) := by rw [← hW]; exact at3_v15 m ρ c
  try rw [e0]
  have e1 : W (Proc.devRef .tc main_v4) = Cert.ReferenceIdeal.Read.val_main_v4 (F := Ideal) (a1 m c) := by rw [← hW]; exact at3_v4 m ρ c
  try rw [e1]
  have e2 : W (Proc.devRef .tc main_v7) = Cert.ReferenceIdeal.Read.val_main_v7 (F := Ideal) (a1 m c) := by rw [← hW]; exact at3_v7 m ρ c
  try rw [e2]
  have e3 : W (Proc.devRef .tc main_v0) = Cert.ReferenceIdeal.Read.val_main_v0 (F := Ideal) (a0 m c) (a3 m c) := by rw [← hW]; exact at3_v0 m ρ c
  try rw [e3]
  have e4 : W (Proc.devRef .tc main_arg4) = a4 m c := by rw [← hW]; exact at3_arg4 m ρ c
  try rw [e4]
  rfl

/-! ## After the positive part: what the second launch finds -/

/-- The positive part, with the outlined function's buffers read at the value's type: the maximum with the zero array. -/
theorem positive_part (p : (⟨Cert.ReferenceIdeal.S50000x64, .f32⟩ : BufTy).Contents (Elt Ideal)) :
    (TRef.of main_v47 : TRef sig ⟨S50000x64, .f32⟩).toBuf (Val := Elt Ideal) (maximumf (F := Ideal) (s := S50000x64) (φ := .f32) ((TRef.of main_v46 : TRef sig ⟨S50000x64, .f32⟩).ofBuf (Val := Elt Ideal) (p))
      ((TRef.of main_call1_v0 : TRef sig ⟨S50000x64, .f32⟩).ofBuf (Val := Elt Ideal) ((TRef.of main_call1_v0 : TRef sig ⟨S50000x64, .f32⟩).toBuf (Val := Elt Ideal) (broadcastInDim S50000x64 ![] bcast_S_S50000x64
        ((TRef.of main_call1_cst : TRef sig ⟨S_, .f32⟩).ofBuf (Val := Elt Ideal) ((TRef.of main_call1_cst : TRef sig ⟨S_, .f32⟩).toBuf (Val := Elt Ideal) (constant (F := Ideal) S_ .f32 0x00000000#32)))))))
      = maximumf (F := Ideal) p (broadcastInDim Cert.ReferenceIdeal.S50000x64 ![] Cert.ReferenceIdeal.Gen.bcast_S_S50000x64
          (constant (F := Ideal) Cert.ReferenceIdeal.S_ .f32 0x00000000#32)) := rfl

/-- The second launch's left operand is the reference's hidden layer. -/
theorem at5_v47 (c : Dev nD) : W5 m ρ c (Proc.devRef .tc main_v47) = Cert.ReferenceIdeal.Read.val_main_v47 (F := Ideal) (a0 m c) (a1 m c) (a3 m c) (a4 m c) := by
  show StableHlo.after hostOps1_3 (W4 m ρ c) (Proc.devRef .tc main_v47) = _
  generalize hW : W4 m ρ c = W
  simp only [hostOps1_3]
  (try after_results_simp)
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  have e0 : W (Proc.devRef .tc main_v46) = Cert.ReferenceIdeal.Read.val_main_v46 (F := Ideal) (a0 m c) (a1 m c) (a3 m c) (a4 m c) := by rw [← hW]; exact at4_v46 m ρ c
  try rw [e0]
  unfold Cert.ReferenceIdeal.Read.val_main_v47 Cert.ReferenceIdeal.Read.val_main_call1_v0 Cert.ReferenceIdeal.Read.val_main_call1_cst
  generalize Cert.ReferenceIdeal.Read.val_main_v46 (F := Ideal) (a0 m c) (a1 m c) (a3 m c) (a4 m c) = p
  exact positive_part p

/-- No host operation of the stretch writes argument 1. -/
theorem at5_arg1 (c : Dev nD) : W5 m ρ c (Proc.devRef .tc main_arg1) = a1 m c := by
  show StableHlo.after hostOps1_3 (StableHlo.after hostOps1_2 (StableHlo.after hostOps1_1 (StableHlo.after hostOps1 (W1 m ρ c)))) (Proc.devRef .tc main_arg1) = _
  generalize hW : W1 m ρ c = W
  simp only [hostOps1, hostOps1_1, hostOps1_2, hostOps1_3]
  (try after_results_simp)
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [← hW]; exact at1_arg1 m ρ c

/-- No host operation of the stretch writes argument 2. -/
theorem at5_arg2 (c : Dev nD) : W5 m ρ c (Proc.devRef .tc main_arg2) = a2 m c := by
  show StableHlo.after hostOps1_3 (StableHlo.after hostOps1_2 (StableHlo.after hostOps1_1 (StableHlo.after hostOps1 (W1 m ρ c)))) (Proc.devRef .tc main_arg2) = _
  generalize hW : W1 m ρ c = W
  simp only [hostOps1, hostOps1_1, hostOps1_2, hostOps1_3]
  (try after_results_simp)
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [← hW]; exact at1_arg2 m ρ c

/-- No host operation of the stretch writes argument 5. -/
theorem at5_arg5 (c : Dev nD) : W5 m ρ c (Proc.devRef .tc main_arg5) = a5 m c := by
  show StableHlo.after hostOps1_3 (StableHlo.after hostOps1_2 (StableHlo.after hostOps1_1 (StableHlo.after hostOps1 (W1 m ρ c)))) (Proc.devRef .tc main_arg5) = _
  generalize hW : W1 m ρ c = W
  simp only [hostOps1, hostOps1_1, hostOps1_2, hostOps1_3]
  (try after_results_simp)
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [← hW]; exact at1_arg5 m ρ c

/-- No host operation of the stretch writes argument 6. -/
theorem at5_arg6 (c : Dev nD) : W5 m ρ c (Proc.devRef .tc main_arg6) = a6 m c := by
  show StableHlo.after hostOps1_3 (StableHlo.after hostOps1_2 (StableHlo.after hostOps1_1 (StableHlo.after hostOps1 (W1 m ρ c)))) (Proc.devRef .tc main_arg6) = _
  generalize hW : W1 m ρ c = W
  simp only [hostOps1, hostOps1_1, hostOps1_2, hostOps1_3]
  (try after_results_simp)
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [← hW]; exact at1_arg6 m ρ c

end Cert.KernelIdeal.Layer1

end
-- ==== Proof.Layer2.lean ====
/-
  From the hidden layer to the rows the decoder multiplies.

  The second launch leaves the whole product of the hidden layer and the second weight matrix in its result array.
  The host then aggregates that product along the graph's edges as before, adds the second bias, and gathers, for each
  label edge, the source node's row and the destination node's row. The reference applies the same host operations, in
  the same order, to its own product; this module follows the buffers through the three runs of host operations (the
  degree mask's select is again a run of its own), each named by the reference's stage function of the arguments.
-/
import proofs.«142946_j55027120996899_2_alg».proof.Proof.Gen.KernelIdeal.Frame
import proofs.«142946_j55027120996899_2_alg».proof.Proof.Product2
import proofs.«142946_j55027120996899_2_alg».proof.Proof.Layer1

set_option maxRecDepth 16384

noncomputable section

open Idealize.ShloMosaic Idealize.ShloMosaic.TcCoe Idealize.SL.Sem Idealize.ShloMosaic.StableHlo

namespace Cert.KernelIdeal.Layer2

open Cert.KernelIdeal Cert.KernelIdeal.Gen Cert.KernelIdeal.Args

variable (m : (ℓ : Loc nD τ sig) → Buf (Elt Ideal) ℓ) (ρ : Dev nD → PrngReg)

/-! ## When the second launch has run -/

/-- The second launch's result array holds the whole product of what its two operand arrays held. -/
theorem product (c : Dev nD) : W6 m ρ c (Proc.devRef .tc main_v48) = Product2.whole (V5 m ρ) c :=
  (W6_arr m ρ c 2).trans (Product2.array (V5 m ρ) c)

/-- The whole 50000 × 64 by 64 × 64 product is the reference's product operation of the same two arrays. -/
theorem whole_is (h : (⟨Cert.ReferenceIdeal.S50000x64, .f32⟩ : BufTy).Contents (Elt Ideal))
    (w : (⟨Cert.ReferenceIdeal.S64x64, .f32⟩ : BufTy).Contents (Elt Ideal)) :
    FloatOps.dotGeneral (F := Ideal) (φ₁ := .f32) (φ₂ := .f32) (DotDims.plain 50000 64 64) none .single h w
      = Host.dotGeneral (F := Ideal) (φ₁ := .f32) (φ₂ := .f32) Cert.ReferenceIdeal.dot_S50000x64_S64x64_S50000x64_1_0_0_1_n_n none h w := rfl

/-- Its operands were the hidden layer and the second weight matrix, so the product is the reference's. -/
theorem at6_v48 (c : Dev nD) : W6 m ρ c (Proc.devRef .tc main_v48) = Cert.ReferenceIdeal.Read.val_main_v48 (F := Ideal) (a0 m c) (a1 m c) (a3 m c) (a4 m c) (a5 m c) :=
  (product m ρ c).trans
    ((congrArg₂ (fun (A : (⟨Cert.ReferenceIdeal.S50000x64, .f32⟩ : BufTy).Contents (Elt Ideal))
          (B : (⟨Cert.ReferenceIdeal.S64x64, .f32⟩ : BufTy).Contents (Elt Ideal)) =>
        FloatOps.dotGeneral (F := Ideal) (φ₁ := .f32) (φ₂ := .f32) (DotDims.plain 50000 64 64) none .single A B)
      (Layer1.at5_v47 m ρ c) (Layer1.at5_arg5 m ρ c)).trans (whole_is _ _))

/-- The launch leaves argument 1 as it was. -/
theorem at6_arg1 (c : Dev nD) : W6 m ρ c (Proc.devRef .tc main_arg1) = a1 m c :=
  (W6_of_ne m ρ c main_arg1 (by decide)).trans (Layer1.at5_arg1 m ρ c)
/-- The launch leaves argument 2 as it was. -/
theorem at6_arg2 (c : Dev nD) : W6 m ρ c (Proc.devRef .tc main_arg2) = a2 m c :=
  (W6_of_ne m ρ c main_arg2 (by decide)).trans (Layer1.at5_arg2 m ρ c)
/-- The launch leaves argument 6 as it was. -/
theorem at6_arg6 (c : Dev nD) : W6 m ρ c (Proc.devRef .tc main_arg6) = a6 m c :=
  (W6_of_ne m ρ c main_arg6 (by decide)).trans (Layer1.at5_arg6 m ρ c)

/-! ## After the first run of host operations: the edge lists, the degrees' mask and inverse roots, again -/

theorem at7_v52 (c : Dev nD) : W7 m ρ c (Proc.devRef .tc main_v52) = Cert.ReferenceIdeal.Read.val_main_v52 (F := Ideal) (a1 m c) := by
  show StableHlo.after hostOps2 (W6 m ρ c) (Proc.devRef .tc main_v52) = _
  generalize hW : W6 m ρ c = W
  simp only [hostOps2]
  (try after_results_simp)
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  have e0 : W (Proc.devRef .tc main_arg1) = a1 m c := by rw [← hW]; exact at6_arg1 m ρ c
  try rw [e0]
  rfl

theorem at7_v55 (c : Dev nD) : W7 m ρ c (Proc.devRef .tc main_v55) = Cert.ReferenceIdeal.Read.val_main_v55 (F := Ideal) (a1 m c) := by
  show StableHlo.after hostOps2 (W6 m ρ c) (Proc.devRef .tc main_v55) = _
  generalize hW : W6 m ρ c = W
  simp only [hostOps2]
  (try after_results_simp)
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  have e0 : W (Proc.devRef .tc main_arg1) = a1 m c := by rw [← hW]; exact at6_arg1 m ρ c
  try rw [e0]
  rfl

theorem at7_v61 (c : Dev nD) : W7 m ρ c (Proc.devRef .tc main_v61) = Cert.ReferenceIdeal.Read.val_main_v61 (F := Ideal) (a1 m c) := by
  show StableHlo.after hostOps2 (W6 m ρ c) (Proc.devRef .tc main_v61) = _
  generalize hW : W6 m ρ c = W
  simp only [hostOps2]
  (try after_results_simp)
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  have e0 : W (Proc.devRef .tc main_arg1) = a1 m c := by rw [← hW]; exact at6_arg1 m ρ c
  try rw [e0]
  rfl

theorem at7_v62 (c : Dev nD) : W7 m ρ c (Proc.devRef .tc main_v62) = Cert.ReferenceIdeal.Read.val_main_v62 (F := Ideal) (a1 m c) := by
  show StableHlo.after hostOps2 (W6 m ρ c) (Proc.devRef .tc main_v62) = _
  generalize hW : W6 m ρ c = W
  simp only [hostOps2]
  (try after_results_simp)
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  have e0 : W (Proc.devRef .tc main_arg1) = a1 m c := by rw [← hW]; exact at6_arg1 m ρ c
  try rw [e0]
  rfl

theorem at7_cst_12 (c : Dev nD) : W7 m ρ c (Proc.devRef .tc main_cst_12) = Cert.ReferenceIdeal.Read.val_main_cst_12 (F := Ideal) := by
  show StableHlo.after hostOps2 (W6 m ρ c) (Proc.devRef .tc main_cst_12) = _
  generalize hW : W6 m ρ c = W
  simp only [hostOps2]
  (try after_results_simp)
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  have e0 : W (Proc.devRef .tc main_arg1) = a1 m c := by rw [← hW]; exact at6_arg1 m ρ c
  try rw [e0]
  rfl

theorem at7_v48 (c : Dev nD) : W7 m ρ c (Proc.devRef .tc main_v48) = Cert.ReferenceIdeal.Read.val_main_v48 (F := Ideal) (a0 m c) (a1 m c) (a3 m c) (a4 m c) (a5 m c) := by
  show StableHlo.after hostOps2 (W6 m ρ c) (Proc.devRef .tc main_v48) = _
  generalize hW : W6 m ρ c = W
  simp only [hostOps2]
  (try after_results_simp)
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [← hW]; exact at6_v48 m ρ c

theorem at7_arg2 (c : Dev nD) : W7 m ρ c (Proc.devRef .tc main_arg2) = a2 m c := by
  show StableHlo.after hostOps2 (W6 m ρ c) (Proc.devRef .tc main_arg2) = _
  generalize hW : W6 m ρ c = W
  simp only [hostOps2]
  (try after_results_simp)
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [← hW]; exact at6_arg2 m ρ c

theorem at7_arg6 (c : Dev nD) : W7 m ρ c (Proc.devRef .tc main_arg6) = a6 m c := by
  show StableHlo.after hostOps2 (W6 m ρ c) (Proc.devRef .tc main_arg6) = _
  generalize hW : W6 m ρ c = W
  simp only [hostOps2]
  (try after_results_simp)
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [← hW]; exact at6_arg6 m ρ c

/-! ## After the degree mask's select -/

/-- The degree mask's select, with the outlined function's buffers read at the value's type: the mask picks the
    inverse root where the degree is positive and the constant elsewhere. -/
theorem mask_select (p : (⟨Cert.ReferenceIdeal.S50000, .i1⟩ : BufTy).Contents (Elt Ideal)) (q : (⟨Cert.ReferenceIdeal.S50000, .f32⟩ : BufTy).Contents (Elt Ideal))
    (k : (⟨Cert.ReferenceIdeal.S_, .f32⟩ : BufTy).Contents (Elt Ideal)) :
    (TRef.of main_v63 : TRef sig ⟨S50000, .f32⟩).toBuf (select ((TRef.of main_v61 : TRef sig ⟨S50000, .i1⟩).ofBuf p) ((TRef.of main_v62 : TRef sig ⟨S50000, .f32⟩).ofBuf q)
      ((TRef.of main_call2_v1 : TRef sig ⟨S50000, .f32⟩).ofBuf ((TRef.of main_call2_v1 : TRef sig ⟨S50000, .f32⟩).toBuf (broadcastInDim S50000 ![] bcast_S_S50000
        ((TRef.of main_call2_v0 : TRef sig ⟨S_, .f32⟩).ofBuf ((TRef.of main_call2_v0 : TRef sig ⟨S_, .f32⟩).toBuf (id ((TRef.of main_cst_12 : TRef sig ⟨S_, .f32⟩).ofBuf k))))))))
      = select p q (broadcastInDim Cert.ReferenceIdeal.S50000 ![] Cert.ReferenceIdeal.Gen.bcast_S_S50000 (id k)) := rfl

theorem at8_v63 (c : Dev nD) : W8 m ρ c (Proc.devRef .tc main_v63) = Cert.ReferenceIdeal.Read.val_main_v63 (F := Ideal) (a1 m c) := by
  show StableHlo.after hostOps2_1 (W7 m ρ c) (Proc.devRef .tc main_v63) = _
  generalize hW : W7 m ρ c = W
  simp only [hostOps2_1]
  (try after_results_simp)
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  have e0 : W (Proc.devRef .tc main_v61) = Cert.ReferenceIdeal.Read.val_main_v61 (F := Ideal) (a1 m c) := by rw [← hW]; exact at7_v61 m ρ c
  try rw [e0]
  have e1 : W (Proc.devRef .tc main_v62) = Cert.ReferenceIdeal.Read.val_main_v62 (F := Ideal) (a1 m c) := by rw [← hW]; exact at7_v62 m ρ c
  try rw [e1]
  have e2 : W (Proc.devRef .tc main_cst_12) = Cert.ReferenceIdeal.Read.val_main_cst_12 (F := Ideal) := by rw [← hW]; exact at7_cst_12 m ρ c
  try rw [e2]
  unfold Cert.ReferenceIdeal.Read.val_main_v63 Cert.ReferenceIdeal.Read.val_main_call2_v1 Cert.ReferenceIdeal.Read.val_main_call2_v0
  generalize Cert.ReferenceIdeal.Read.val_main_v61 (F := Ideal) (a1 m c) = p
  generalize Cert.ReferenceIdeal.Read.val_main_v62 (F := Ideal) (a1 m c) = q
  generalize Cert.ReferenceIdeal.Read.val_main_cst_12 (F := Ideal) = k
  exact mask_select p q k

theorem at8_v52 (c : Dev nD) : W8 m ρ c (Proc.devRef .tc main_v52) = Cert.ReferenceIdeal.Read.val_main_v52 (F := Ideal) (a1 m c) := by
  show StableHlo.after hostOps2_1 (W7 m ρ c) (Proc.devRef .tc main_v52) = _
  generalize hW : W7 m ρ c = W
  simp only [hostOps2_1]
  (try after_results_simp)
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [← hW]; exact at7_v52 m ρ c

theorem at8_v55 (c : Dev nD) : W8 m ρ c (Proc.devRef .tc main_v55) = Cert.ReferenceIdeal.Read.val_main_v55 (F := Ideal) (a1 m c) := by
  show StableHlo.after hostOps2_1 (W7 m ρ c) (Proc.devRef .tc main_v55) = _
  generalize hW : W7 m ρ c = W
  simp only [hostOps2_1]
  (try after_results_simp)
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [← hW]; exact at7_v55 m ρ c

theorem at8_v48 (c : Dev nD) : W8 m ρ c (Proc.devRef .tc main_v48) = Cert.ReferenceIdeal.Read.val_main_v48 (F := Ideal) (a0 m c) (a1 m c) (a3 m c) (a4 m c) (a5 m c) := by
  show StableHlo.after hostOps2_1 (W7 m ρ c) (Proc.devRef .tc main_v48) = _
  generalize hW : W7 m ρ c = W
  simp only [hostOps2_1]
  (try after_results_simp)
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [← hW]; exact at7_v48 m ρ c

theorem at8_arg2 (c : Dev nD) : W8 m ρ c (Proc.devRef .tc main_arg2) = a2 m c := by
  show StableHlo.after hostOps2_1 (W7 m ρ c) (Proc.devRef .tc main_arg2) = _
  generalize hW : W7 m ρ c = W
  simp only [hostOps2_1]
  (try after_results_simp)
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [← hW]; exact at7_arg2 m ρ c

theorem at8_arg6 (c : Dev nD) : W8 m ρ c (Proc.devRef .tc main_arg6) = a6 m c := by
  show StableHlo.after hostOps2_1 (W7 m ρ c) (Proc.devRef .tc main_arg6) = _
  generalize hW : W7 m ρ c = W
  simp only [hostOps2_1]
  (try after_results_simp)
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [← hW]; exact at7_arg6 m ρ c

/-! ## After the aggregation, the bias and the two gathers: what the third launch finds -/

/-- The source nodes' rows. -/
theorem at9_v105 (c : Dev nD) : W9 m ρ c (Proc.devRef .tc main_v105) = Cert.ReferenceIdeal.Read.val_main_v105 (F := Ideal) (a0 m c) (a1 m c) (a2 m c) (a3 m c) (a4 m c) (a5 m c) (a6 m c) := by
  show StableHlo.after hostOps2_2 (W8 m ρ c) (Proc.devRef .tc main_v105) = _
  generalize hW : W8 m ρ c = W
  simp only [hostOps2_2]
  (try after_results_simp)
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  have e0 : W (Proc.devRef .tc main_v63) = Cert.ReferenceIdeal.Read.val_main_v63 (F := Ideal) (a1 m c) := by rw [← hW]; exact at8_v63 m ρ c
  try rw [e0]
  have e1 : W (Proc.devRef .tc main_v52) = Cert.ReferenceIdeal.Read.val_main_v52 (F := Ideal) (a1 m c) := by rw [← hW]; exact at8_v52 m ρ c
  try rw [e1]
  have e2 : W (Proc.devRef .tc main_v55) = Cert.ReferenceIdeal.Read.val_main_v55 (F := Ideal) (a1 m c) := by rw [← hW]; exact at8_v55 m ρ c
  try rw [e2]
  have e3 : W (Proc.devRef .tc main_v48) = Cert.ReferenceIdeal.Read.val_main_v48 (F := Ideal) (a0 m c) (a1 m c) (a3 m c) (a4 m c) (a5 m c) := by rw [← hW]; exact at8_v48 m ρ c
  try rw [e3]
  have e4 : W (Proc.devRef .tc main_arg2) = a2 m c := by rw [← hW]; exact at8_arg2 m ρ c
  try rw [e4]
  have e5 : W (Proc.devRef .tc main_arg6) = a6 m c := by rw [← hW]; exact at8_arg6 m ρ c
  try rw [e5]
  rfl

/-- The destination nodes' rows. -/
theorem at9_v112 (c : Dev nD) : W9 m ρ c (Proc.devRef .tc main_v112) = Cert.ReferenceIdeal.Read.val_main_v112 (F := Ideal) (a0 m c) (a1 m c) (a2 m c) (a3 m c) (a4 m c) (a5 m c) (a6 m c) := by
  show StableHlo.after hostOps2_2 (W8 m ρ c) (Proc.devRef .tc main_v112) = _
  generalize hW : W8 m ρ c = W
  simp only [hostOps2_2]
  (try after_results_simp)
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  have e0 : W (Proc.devRef .tc main_v63) = Cert.ReferenceIdeal.Read.val_main_v63 (F := Ideal) (a1 m c) := by rw [← hW]; exact at8_v63 m ρ c
  try rw [e0]
  have e1 : W (Proc.devRef .tc main_v52) = Cert.ReferenceIdeal.Read.val_main_v52 (F := Ideal) (a1 m c) := by rw [← hW]; exact at8_v52 m ρ c
  try rw [e1]
  have e2 : W (Proc.devRef .tc main_v55) = Cert.ReferenceIdeal.Read.val_main_v55 (F := Ideal) (a1 m c) := by rw [← hW]; exact at8_v55 m ρ c
  try rw [e2]
  have e3 : W (Proc.devRef .tc main_v48) = Cert.ReferenceIdeal.Read.val_main_v48 (F := Ideal) (a0 m c) (a1 m c) (a3 m c) (a4 m c) (a5 m c) := by rw [← hW]; exact at8_v48 m ρ c
  try rw [e3]
  have e4 : W (Proc.devRef .tc main_arg2) = a2 m c := by rw [← hW]; exact at8_arg2 m ρ c
  try rw [e4]
  have e5 : W (Proc.devRef .tc main_arg6) = a6 m c := by rw [← hW]; exact at8_arg6 m ρ c
  try rw [e5]
  rfl

end Cert.KernelIdeal.Layer2

end
-- ==== Proof.LibColumnVector.lean ====
/-
  A column read as a vector: an [a, 1] array cast to the shape [a] holds, at i, the column's entry (i, 0) — the two
  shapes list the same entries in the same row-major order. (The converse cast, [a] to [a, 1], reads the vector at i
  for the entry (i, 0).)
-/
import Idealize.ShloMosaic.Lib.ValueIdx
import Idealize.ShloMosaic.Lib.Pipeline.Value

noncomputable section

namespace Idealize.ShloMosaic.ValueColumnVector

open Idealize.ShloMosaic Idealize.ShloMosaic.ValueIdx

variable {α : Type}

/-- An [a, 1] column cast to the vector [a] reads, at i, the column at (i, 0). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Idealize.ShloMosaic.ValueColumnVector

end
-- ==== Proof.Result.lean ====
/-
  The kernel program's result as the reference's function of the arguments.

  The third launch leaves, at row i of its 200000 × 1 result column, the sum over k of the gathered source row's and
  destination row's products; the last host operation reads that column as a vector. The reference multiplies the two
  gathered arrays entry by entry and adds each row's 64 products from zero. Row by row these are the same sum — no law of
  arithmetic is needed beyond 0 + s = s.
-/
import proofs.«142946_j55027120996899_2_alg».proof.Proof.Gen.KernelIdeal.Frame
import proofs.«142946_j55027120996899_2_alg».proof.Proof.RowDots
import proofs.«142946_j55027120996899_2_alg».proof.Proof.Layer2
import proofs.«142946_j55027120996899_2_alg».proof.Proof.LibColumnVector

set_option maxRecDepth 16384

noncomputable section

open Idealize.ShloMosaic Idealize.ShloMosaic.TcCoe Idealize.SL.Sem Idealize.ShloMosaic.StableHlo

open scoped BigOperators
open Idealize.ShloMosaic.ValueIdx

namespace Cert.KernelIdeal.Result

open Cert.KernelIdeal Cert.KernelIdeal.Gen Cert.KernelIdeal.Args

variable (m : (ℓ : Loc nD τ sig) → Buf (Elt Ideal) ℓ) (ρ : Dev nD → PrngReg)

/-- The third launch's result column holds the row sums of what its two operand arrays held. -/
theorem column (c : Dev nD) : W10 m ρ c (Proc.devRef .tc main_v113) = RowDots.whole (V9 m ρ) c :=
  (W10_arr m ρ c 2).trans (RowDots.array (V9 m ρ) c)

/-- Its operands were the gathered source and destination rows. -/
theorem column_rows (c : Dev nD) :
    W10 m ρ c (Proc.devRef .tc main_v113) = RowDots.rowdots (Cert.ReferenceIdeal.Read.val_main_v105 (F := Ideal) (a0 m c) (a1 m c) (a2 m c) (a3 m c) (a4 m c) (a5 m c) (a6 m c)) (Cert.ReferenceIdeal.Read.val_main_v112 (F := Ideal) (a0 m c) (a1 m c) (a2 m c) (a3 m c) (a4 m c) (a5 m c) (a6 m c)) :=
  (column m ρ c).trans (congrArg₂ RowDots.rowdots (Layer2.at9_v105 m ρ c) (Layer2.at9_v112 m ρ c))

/-- The result buffer holds the reference's result of the arguments. -/
theorem result (c : Dev nD) : W11 m ρ c (Proc.devRef .tc main_v114) = Cert.ReferenceIdeal.Read.val_main_v114 (F := Ideal) (a0 m c) (a1 m c) (a2 m c) (a3 m c) (a4 m c) (a5 m c) (a6 m c) := by
  show StableHlo.after hostOps3 (W10 m ρ c) (Proc.devRef .tc main_v114) = _
  generalize hW : W10 m ρ c = W
  simp only [hostOps3]
  (try after_results_simp)
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  have e0 : W (Proc.devRef .tc main_v113) = RowDots.rowdots (Cert.ReferenceIdeal.Read.val_main_v105 (F := Ideal) (a0 m c) (a1 m c) (a2 m c) (a3 m c) (a4 m c) (a5 m c) (a6 m c)) (Cert.ReferenceIdeal.Read.val_main_v112 (F := Ideal) (a0 m c) (a1 m c) (a2 m c) (a3 m c) (a4 m c) (a5 m c) (a6 m c)) := by
    rw [← hW]; exact column_rows m ρ c
  rw [e0]
  funext i
  obtain ⟨r, rfl⟩ : ∃ r : Fin 200000, i = ix1 r := ⟨i 0, eq_ix1 i⟩
  rw [Cert.ReferenceIdeal.Read.val_main_v114_apply]
  refine (ValueColumnVector.shapeCast_a1_a_apply (RowDots.rowdots (Cert.ReferenceIdeal.Read.val_main_v105 (F := Ideal) (a0 m c) (a1 m c) (a2 m c) (a3 m c) (a4 m c) (a5 m c) (a6 m c)) (Cert.ReferenceIdeal.Read.val_main_v112 (F := Ideal) (a0 m c) (a1 m c) (a2 m c) (a3 m c) (a4 m c) (a5 m c) (a6 m c))) shapeCasts_S200000x1_S200000 r).trans ?_
  rw [Cert.ReferenceIdeal.Read.val_main_cst_24_apply]
  show ∑ k : Fin 64, _ = Ideal.ofBits .f32 0x00000000#32 + _
  rw [Ideal.ofBits_zero_f32, zero_add]
  refine Finset.sum_congr rfl fun k _ => ?_
  rw [Cert.ReferenceIdeal.Read.val_main_v113_apply]
  have hidx : Cert.ReferenceIdeal.Read.idx_main_v114 (ix1 r) k = ix2 r k :=
    funext fun a => Fin.ext (by match a with | ⟨0, _⟩ => rfl | ⟨1, _⟩ => rfl)
  rw [hidx]
  rfl

end Cert.KernelIdeal.Result

end
-- ==== Proof.lean ====
/-
  The certificate of the two-layer graph convolution with a dot-product decoder.

  The kernel program multiplies the node features by the first weight matrix in a launch tiled over row blocks,
  aggregates the product along the edges on the host (self-loops added, each edge weighted by the inverse square roots of
  its ends' degrees), adds the bias and keeps the positive part; does the same with the second weight matrix, without the
  positive part; gathers the source and destination rows of every label edge on the host; and in a third launch adds,
  row by row, the products of the two gathered arrays. The reference is the same host program with the two launches'
  products written as one product each and the third launch as a multiply and a row sum.

  On the extended reals the two agree with no condition on the inputs: a product tiled over its rows is the whole
  product entry by entry, term by term (the roundings to bf16 on the way into the matrix unit are the identity here); a
  row's sum of products from the zero word is the host's sum from zero; and the host operations between the launches are
  the reference's own, applied to equal arrays. The ideal pass rewrote nothing, so the kernel's idealization is the
  program's own text.
-/
import proofs.«142946_j55027120996899_2_alg».proof.Defs
import proofs.«142946_j55027120996899_2_alg».proof.Proof.Gen.Kernel
import proofs.«142946_j55027120996899_2_alg».proof.Proof.Gen.Kernel.Frame
import proofs.«142946_j55027120996899_2_alg».proof.Proof.Gen.KernelIdeal
import proofs.«142946_j55027120996899_2_alg».proof.Proof.Gen.KernelIdeal.Frame
import proofs.«142946_j55027120996899_2_alg».proof.Proof.Gen.ReferenceIdeal
import proofs.«142946_j55027120996899_2_alg».proof.Proof.Gen.Pre_finite_inputs
import proofs.«142946_j55027120996899_2_alg».proof.Proof.RefRead
import proofs.«142946_j55027120996899_2_alg».proof.Proof.KernelRun
import proofs.«142946_j55027120996899_2_alg».proof.Proof.Result
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a host program: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both programs end with the reference's result of those arguments. -/
theorem algebraic : Cert.algebraic_KernelIdeal_ReferenceIdeal := by
  intro m ρ m' ρ' _ hagree
  refine ⟨fun c => Cert.ReferenceIdeal.Read.val_main_v114 (F := Ideal) (Cert.KernelIdeal.Args.a0 m c) (Cert.KernelIdeal.Args.a1 m c)
    (Cert.KernelIdeal.Args.a2 m c) (Cert.KernelIdeal.Args.a3 m c) (Cert.KernelIdeal.Args.a4 m c) (Cert.KernelIdeal.Args.a5 m c)
    (Cert.KernelIdeal.Args.a6 m c), ?_, ?_⟩
  · exact (θ_run Cert.KernelIdeal.defs _ _).mono (fun _ h c => ⟨(h c).1.trans (Cert.KernelIdeal.Result.result m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6⟩ := hagree c
    rw [Cert.ReferenceIdeal.Read.val_main_v114_eq, h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
